-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel

variable [Facts]

def fn {F : FTy → Type} [FloatOps F] (main_arg0 : FVec F S64x4096x256 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  main_v3
-- ==== Kernel.lean ====
abbrev S64x4096x256 : Shape := ⟨3, ![64, 4096, 256]⟩
abbrev S131072x512 : Shape := ⟨2, ![131072, 512]⟩
abbrev S2048x512 : Shape := ⟨2, ![2048, 512]⟩
abbrev S2048x256 : Shape := ⟨2, ![2048, 256]⟩
abbrev S2048x256x1 : Shape := ⟨3, ![2048, 256, 1]⟩
abbrev S2048x256x2 : Shape := ⟨3, ![2048, 256, 2]⟩
abbrev S64x2048x512 : Shape := ⟨3, ![64, 2048, 512]⟩

abbrev nBuf : Space → Nat
  | .hbm => 4
  | .vmem => 4
  | .smem => 0
  | _ => 0

abbrev bufTy : (tb : Table) → Fin (tcTables nBuf tb) → BufTy
  | .hbm, ⟨0, _⟩ => ⟨S64x4096x256, .f32⟩
  | .hbm, ⟨1, _⟩ => ⟨S131072x512, .f32⟩
  | .hbm, ⟨2, _⟩ => ⟨S131072x512, .f32⟩
  | .hbm, ⟨3, _⟩ => ⟨S64x2048x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x4096x256_S131072x512 : S64x4096x256.ShapeCasts S131072x512
  inb_S2048x512_S2048x256_0_0 : ∀ a, (![0, 0] : Fin 2 → Nat) a + S2048x256.size a ≤ S2048x512.size a
  h_S2048x256 : 0 < S2048x256.numel
  shapeCasts_S2048x256_S2048x256 : S2048x256.ShapeCasts S2048x256
  inb_S2048x512_S2048x256_0_256 : ∀ a, (![0, 256] : Fin 2 → Nat) a + S2048x256.size a ≤ S2048x512.size a
  shapeCasts_S2048x256_S2048x256x1 : S2048x256.ShapeCasts S2048x256x1
  concatenates_S2048x256x1_S2048x256x1_S2048x256x2_d2 : Shape.Concatenates [S2048x256x1, S2048x256x1] S2048x256x2 2
  shapeCasts_S2048x256x2_S2048x512 : S2048x256x2.ShapeCasts S2048x512
  inb_S2048x512_S2048x512_0_0 : ∀ a, (![0, 0] : Fin 2 → Nat) a + S2048x512.size a ≤ S2048x512.size a
  h_S2048x512 : 0 < S2048x512.numel
  shapeCasts_S131072x512_S64x2048x512 : S131072x512.ShapeCasts S64x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x4096x256 : Shape := ⟨3, ![64, 4096, 256]⟩
abbrev S64x2048x2x256 : Shape := ⟨4, ![64, 2048, 2, 256]⟩
abbrev S64x2048x1x256 : Shape := ⟨4, ![64, 2048, 1, 256]⟩
abbrev S64x2048x256 : Shape := ⟨3, ![64, 2048, 256]⟩
abbrev S_ : Shape := ⟨0, ![]⟩
abbrev S64x2048x256x1 : Shape := ⟨4, ![64, 2048, 256, 1]⟩
abbrev S64x2048x256x2 : Shape := ⟨4, ![64, 2048, 256, 2]⟩
abbrev S64x2048x512 : Shape := ⟨3, ![64, 2048, 512]⟩

abbrev nBuf : Space → Nat
  | .hbm => 18
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S64x2048x2x256, .f32⟩
  | .hbm, ⟨2, _⟩ => ⟨S64x2048x1x256, .f32⟩
  | .hbm, ⟨3, _⟩ => ⟨S64x2048x256, .f32⟩
  | .hbm, ⟨4, _⟩ => ⟨S64x2048x1x256, .f32⟩
  | .hbm, ⟨5, _⟩ => ⟨S64x2048x256, .f32⟩
  | .hbm, ⟨6, _⟩ => ⟨S64x2048x256, .f32⟩
  | .hbm, ⟨7, _⟩ => ⟨S_, .f32⟩
  | .hbm, ⟨8, _⟩ => ⟨S64x2048x256, .f32⟩
  | .hbm, ⟨9, _⟩ => ⟨S64x2048x256, .f32⟩
  | .hbm, ⟨10, _⟩ => ⟨S64x2048x256, .f32⟩
  | .hbm, ⟨11, _⟩ => ⟨S_, .f32⟩
  | .hbm, ⟨12, _⟩ => ⟨S64x2048x256, .f32⟩
  | .hbm, ⟨13, _⟩ => ⟨S64x2048x256, .f32⟩
  | .hbm, ⟨14, _⟩ => ⟨S64x2048x256x1, .f32⟩
  | .hbm, ⟨15, _⟩ => ⟨S64x2048x256x1, .f32⟩
  | .hbm, ⟨16, _⟩ => ⟨S64x2048x256x2, .f32⟩
  | .hbm, ⟨17, _⟩ => ⟨S64x2048x512, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]

class Facts₀ : Prop where
  shapeCasts_S64x4096x256_S64x2048x2x256 : S64x4096x256.ShapeCasts S64x2048x2x256
  slices_S64x2048x2x256_S64x2048x1x256_0_0_0_0 : S64x2048x2x256.Slices ![0, 0, 0, 0] S64x2048x1x256
  shapeCasts_S64x2048x1x256_S64x2048x256 : S64x2048x1x256.ShapeCasts S64x2048x256
  slices_S64x2048x2x256_S64x2048x1x256_0_0_1_0 : S64x2048x2x256.Slices ![0, 0, 1, 0] S64x2048x1x256
  bcast_S_S64x2048x256 : S_.BroadcastsInDim S64x2048x256 (![] : Fin 0 → Fin S64x2048x256.rank)
  bcast_S64x2048x256_S64x2048x256x1_0_1_2 : S64x2048x256.BroadcastsInDim S64x2048x256x1 (![0, 1, 2] : Fin 3 → Fin S64x2048x256x1.rank)
  concatenates_S64x2048x256x1_S64x2048x256x1_S64x2048x256x2_d3 : Shape.Concatenates [S64x2048x256x1, S64x2048x256x1] S64x2048x256x2 3
  shapeCasts_S64x2048x256x2_S64x2048x512 : S64x2048x256x2.ShapeCasts S64x2048x512

variable [Facts₀]

class Facts : Prop extends Facts₀ where

variable [Facts]
-- ==== Proof.HaarSpec.lean ====
/-
  The level-1 Haar wavelet transform along the sequence axis, as a function of the whole input array.

  The input is x : [64, 4096, 256] (batch, time, feature).  Consecutive time steps are paired: for batch b, pair s and
  feature f the two samples are x[b, 2s, f] and x[b, 2s+1, f].  The output y : [64, 2048, 512] interleaves, per feature,
  the approximation and the detail coefficient of each pair:

      y[b, s, 2f]     = (x[b, 2s, f] + x[b, 2s+1, f]) * h
      y[b, s, 2f + 1] = (x[b, 2s, f] - x[b, 2s+1, f]) * h

  with h one fixed single-precision constant (the word 0x3F3504F3).  Nothing here evaluates h, and no law of
  arithmetic is used: both programs apply the very same three operations to the very same two samples, so the whole
  content of the equivalence is which samples meet at which output position.

  A second description of the same function reads the array as 131072 rows of 512 lanes: row k = 2048 b + s holds the
  pair (b, s), its lanes 0..255 the even sample's features and its lanes 256..511 the odd sample's.  Output lane q of
  row k is then the coefficient of lanes q/2 and 256 + q/2 of row k, the sum when q is even and the difference when q
  is odd.  `haarRows_reshape` says that the row description, between the two re-readings of the array, is `haar`.
-/
import Idealize.ShloMosaic.PureOps
import Idealize.ShloMosaic.Lib.ValueIdx
import Idealize.ShloMosaic.Lib.Pipeline.Value

noncomputable section

namespace Cert.Haar

open Idealize.ShloMosaic Idealize.ShloMosaic.ValueIdx

variable {F : FTy → Type} [FloatOps F]

/-- The input array's shape: batch × time × feature. -/
abbrev Xs : Shape := ⟨3, ![64, 4096, 256]⟩
/-- The output array's shape: batch × pair × interleaved coefficient. -/
abbrev Ys : Shape := ⟨3, ![64, 2048, 512]⟩
/-- Either array read as rows: one row per (batch, pair). -/
abbrev Rows : Shape := ⟨2, ![131072, 512]⟩

/-- The filter coefficient, as the one word both programs spell. -/
def h : F .f32 := FloatOps.ofBits .f32 0x3F3504F3#32

/-- The output entry at lane `lane` from the pair's two samples: the scaled sum on an even lane, the scaled
    difference on an odd one. -/
def coef (lane : Nat) (a b : F .f32) : F .f32 :=
  if lane % 2 = 0 then FloatOps.mulf (FloatOps.addf a b) h else FloatOps.mulf (FloatOps.subf a b) h

theorem coef_even {lane : Nat} (hl : lane % 2 = 0) (a b : F .f32) :
    coef lane a b = FloatOps.mulf (FloatOps.addf a b) h := if_pos hl

theorem coef_odd {lane : Nat} (hl : lane % 2 = 1) (a b : F .f32) :
    coef lane a b = FloatOps.mulf (FloatOps.subf a b) h := if_neg (by omega)

/-- The transform, index by index over (batch, pair, lane). -/
def haar (x : Xs.Idx → F .f32) : Ys.Idx → F .f32 := fun i =>
  coef (i 2).val
    (x (ix3 (⟨(i 0).val, (i 0).isLt⟩ : Fin 64)
        (⟨2 * (i 1).val, by have h1 : (i 1).val < 2048 := (i 1).isLt; omega⟩ : Fin 4096)
        (⟨(i 2).val / 2, by have h2 : (i 2).val < 512 := (i 2).isLt; omega⟩ : Fin 256)))
    (x (ix3 (⟨(i 0).val, (i 0).isLt⟩ : Fin 64)
        (⟨2 * (i 1).val + 1, by have h1 : (i 1).val < 2048 := (i 1).isLt; omega⟩ : Fin 4096)
        (⟨(i 2).val / 2, by have h2 : (i 2).val < 512 := (i 2).isLt; omega⟩ : Fin 256)))

/-- `haar` at explicit coordinates. -/
theorem haar_apply (x : Xs.Idx → F .f32) (b : Fin 64) (s : Fin 2048) (q : Fin 512) :
    haar x (ix3 b s q)
      = coef q.val
          (x (ix3 b (⟨2 * s.val, by have := s.isLt; omega⟩ : Fin 4096) (⟨q.val / 2, by have := q.isLt; omega⟩ : Fin 256)))
          (x (ix3 b (⟨2 * s.val + 1, by have := s.isLt; omega⟩ : Fin 4096) (⟨q.val / 2, by have := q.isLt; omega⟩ : Fin 256))) :=
  rfl

/-- The transform on rows of 512 lanes: lane `q` of a row from lanes `q / 2` and `256 + q / 2` of the same row. -/
def haarRows (y : Rows.Idx → F .f32) : Rows.Idx → F .f32 := fun i =>
  coef (i 1).val
    (y (ix2 (⟨(i 0).val, (i 0).isLt⟩ : Fin 131072)
        (⟨(i 1).val / 2, by have h1 : (i 1).val < 512 := (i 1).isLt; omega⟩ : Fin 512)))
    (y (ix2 (⟨(i 0).val, (i 0).isLt⟩ : Fin 131072)
        (⟨256 + (i 1).val / 2, by have h1 : (i 1).val < 512 := (i 1).isLt; omega⟩ : Fin 512)))

/-- `haarRows` at explicit coordinates. -/
theorem haarRows_apply (y : Rows.Idx → F .f32) (k : Fin 131072) (q : Fin 512) :
    haarRows y (ix2 k q)
      = coef q.val
          (y (ix2 k (⟨q.val / 2, by have := q.isLt; omega⟩ : Fin 512)))
          (y (ix2 k (⟨256 + q.val / 2, by have := q.isLt; omega⟩ : Fin 512))) :=
  rfl

/-- Row `2048 b + s`, lane `l` of the input read as rows is sample `2 s + l / 256` of batch `b` at feature `l % 256`:
    the two row-major positions are the same number. -/
theorem rows_of_input (x : Xs.Idx → F .f32) (hc : Xs.ShapeCasts Rows) (b : Fin 64) (s : Fin 2048) (l : Fin 512)
    (k : Fin 131072) (hk : k.val = b.val * 2048 + s.val) (t : Fin 4096) (ht : t.val = 2 * s.val + l.val / 256)
    (f : Fin 256) (hf : f.val = l.val % 256) :
    shapeCast Rows x hc (ix2 k l) = x (ix3 b t f) := by
  refine shapeCast_apply x hc (ix2 k l) (ix3 b t f) ?_
  rw [Shape.rowMajor_val_three, Shape.rowMajor_val_two]
  show (b.val * 4096 + t.val) * 256 + f.val = k.val * 512 + l.val
  have := l.isLt
  omega

/-- The row description between the two re-readings of the array is the transform. -/
theorem haarRows_reshape (x : Xs.Idx → F .f32) (hin : Xs.ShapeCasts Rows) (hout : Rows.ShapeCasts Ys) :
    shapeCast Ys (haarRows (shapeCast Rows x hin)) hout = haar x := by
  funext i
  obtain ⟨b, s, q, rfl⟩ : ∃ (b : Fin 64) (s : Fin 2048) (q : Fin 512), i = ix3 b s q := ⟨i 0, i 1, i 2, eq_ix3 i⟩
  have hb := b.isLt
  have hs := s.isLt
  have hq := q.isLt
  refine (shapeCast_apply _ hout (ix3 b s q) (ix2 (⟨b.val * 2048 + s.val, by omega⟩ : Fin 131072) q) ?_).trans ?_
  · rw [Shape.rowMajor_val_two, Shape.rowMajor_val_three]
    show (b.val * 2048 + s.val) * 512 + q.val = (b.val * 2048 + s.val) * 512 + q.val
    rfl
  · rw [haarRows_apply, haar_apply,
      rows_of_input x hin b s ⟨q.val / 2, by omega⟩ ⟨b.val * 2048 + s.val, by omega⟩ rfl
        ⟨2 * s.val, by omega⟩ (by show 2 * s.val = 2 * s.val + q.val / 2 / 256; omega)
        ⟨q.val / 2, by omega⟩ (by show q.val / 2 = q.val / 2 % 256; omega),
      rows_of_input x hin b s ⟨256 + q.val / 2, by omega⟩ ⟨b.val * 2048 + s.val, by omega⟩ rfl
        ⟨2 * s.val + 1, by omega⟩ (by show 2 * s.val + 1 = 2 * s.val + (256 + q.val / 2) / 256; omega)
        ⟨q.val / 2, by omega⟩ (by show q.val / 2 = (256 + q.val / 2) % 256; omega)]

end Cert.Haar

end
-- ==== Proof.HaarReference.lean ====
/-
  The reference program computes the Haar transform `Cert.Haar.haar` of its argument.

  The reference re-reads x : [64, 4096, 256] as [64, 2048, 2, 256] (pair index s, position e inside the pair), slices
  out position 0 and position 1, drops the unit axis, forms (x0 + x1) * h and (x0 - x1) * h, appends a unit axis to
  each, joins the two along that last axis and merges the last two axes [256, 2] into 512 lanes.  Read at output index
  (b, s, q): the merge puts lane q at (feature q / 2, slot q % 2); slot 0 is the sum and slot 1 the difference; either
  is taken at (b, s, q / 2), where the two operands are the slices at (b, s, 0, q / 2), that is positions 0 and 1 of
  pair s, which in the original array are times 2 s and 2 s + 1.
-/
import proofs.«172905_j45938970198411_2_alg».proof.Proof.Gen.ReferenceIdeal.Read
import proofs.«172905_j45938970198411_2_alg».proof.Proof.HaarSpec

noncomputable section

namespace Cert.ReferenceIdeal.HaarRef

open Cert.ReferenceIdeal Cert.ReferenceIdeal.Read Idealize.ShloMosaic Idealize.ShloMosaic.ValueIdx

variable {F : FTy → Type} [FloatOps F]

/-- Dropping the unit axis: entry (b, s, p) of the squeezed slice is entry (b, s, 0, p) of the slice. -/
theorem squeeze_idx2 (b : Fin 64) (s : Fin 2048) (p : Fin 256) :
    idx_main_v2 (ix3 b s p) = ix4 b s (0 : Fin 1) p := by
  have hb := b.isLt
  have hs := s.isLt
  have hp := p.isLt
  funext a
  apply Fin.ext
  match a with
  | ⟨0, _⟩ => show ((b.val * 2048 + s.val) * 256 + p.val) / 524288 = b.val; omega
  | ⟨1, _⟩ => show ((b.val * 2048 + s.val) * 256 + p.val) / 256 % 2048 = s.val; omega
  | ⟨2, _⟩ => rfl
  | ⟨3, _⟩ => show ((b.val * 2048 + s.val) * 256 + p.val) % 256 = p.val; omega

theorem squeeze_idx4 (b : Fin 64) (s : Fin 2048) (p : Fin 256) :
    idx_main_v4 (ix3 b s p) = ix4 b s (0 : Fin 1) p := squeeze_idx2 b s p

/-- Position `e` of pair `s` is time `2 s + e`: the two row-major positions agree. -/
theorem pair_idx (b : Fin 64) (s : Fin 2048) (e : Fin 2) (p : Fin 256) :
    idx_main_v0 (ix4 b s e p) = ix3 b (⟨2 * s.val + e.val, by have := s.isLt; have := e.isLt; omega⟩ : Fin 4096) p := by
  have hb := b.isLt
  have hs := s.isLt
  have he := e.isLt
  have hp := p.isLt
  funext a
  apply Fin.ext
  match a with
  | ⟨0, _⟩ => show (((b.val * 2048 + s.val) * 2 + e.val) * 256 + p.val) / 1048576 = b.val; omega
  | ⟨1, _⟩ => show (((b.val * 2048 + s.val) * 2 + e.val) * 256 + p.val) / 256 % 4096 = 2 * s.val + e.val; omega
  | ⟨2, _⟩ => show (((b.val * 2048 + s.val) * 2 + e.val) * 256 + p.val) % 256 = p.val; omega

/-- The first operand at (b, s, p) is the even sample of pair `s`. -/
theorem even_sample (x : (⟨S64x4096x256, .f32⟩ : BufTy).Contents (Elt F)) (b : Fin 64) (s : Fin 2048) (p : Fin 256) :
    val_main_v2 (F := F) x (ix3 b s p) = x (ix3 b (⟨2 * s.val, by have := s.isLt; omega⟩ : Fin 4096) p) := by
  rw [val_main_v2_apply, squeeze_idx2, val_main_v1_apply,
    show idx_main_v1 (ix4 b s (0 : Fin 1) p) = ix4 b s (0 : Fin 2) p from
      funext fun a => match a with | ⟨0, _⟩ => rfl | ⟨1, _⟩ => rfl | ⟨2, _⟩ => rfl | ⟨3, _⟩ => rfl,
    val_main_v0_apply, pair_idx]
  rfl

/-- The second operand at (b, s, p) is the odd sample of pair `s`. -/
theorem odd_sample (x : (⟨S64x4096x256, .f32⟩ : BufTy).Contents (Elt F)) (b : Fin 64) (s : Fin 2048) (p : Fin 256) :
    val_main_v4 (F := F) x (ix3 b s p) = x (ix3 b (⟨2 * s.val + 1, by have := s.isLt; omega⟩ : Fin 4096) p) := by
  rw [val_main_v4_apply, squeeze_idx4, val_main_v3_apply,
    show idx_main_v3 (ix4 b s (0 : Fin 1) p) = ix4 b s (1 : Fin 2) p from
      funext fun a => match a with | ⟨0, _⟩ => rfl | ⟨1, _⟩ => rfl | ⟨2, _⟩ => rfl | ⟨3, _⟩ => rfl,
    val_main_v0_apply, pair_idx]
  rfl

/-- Slot 0 of the joined array is the scaled sum. -/
theorem slot_even (x : (⟨S64x4096x256, .f32⟩ : BufTy).Contents (Elt F)) (b : Fin 64) (s : Fin 2048) (p : Fin 256)
    (e : Fin 2) (he : e.val = 0) :
    val_main_v13 (F := F) x (ix4 b s p e) = val_main_v7 (F := F) x (ix3 b s p) := by
  have hcat : val_main_v13 (F := F) x (ix4 b s p e) = val_main_v11 (F := F) x (ix4 b s p (0 : Fin 1)) :=
    concatenate_pair_apply_left (t := S64x2048x256x2) (s₁ := S64x2048x256x1) (s₂ := S64x2048x256x1) 3 _ _ _ _ rfl _
      (fun a => match a with
        | ⟨0, _⟩ => rfl
        | ⟨1, _⟩ => rfl
        | ⟨2, _⟩ => rfl
        | ⟨3, _⟩ => by show (0 : Nat) = e.val; omega)
  rw [hcat, val_main_v11_apply]
  exact congrArg _ (funext fun a => match a with | ⟨0, _⟩ => rfl | ⟨1, _⟩ => rfl | ⟨2, _⟩ => rfl)

/-- Slot 1 of the joined array is the scaled difference. -/
theorem slot_odd (x : (⟨S64x4096x256, .f32⟩ : BufTy).Contents (Elt F)) (b : Fin 64) (s : Fin 2048) (p : Fin 256)
    (e : Fin 2) (he : e.val = 1) :
    val_main_v13 (F := F) x (ix4 b s p e) = val_main_v10 (F := F) x (ix3 b s p) := by
  have hcat : val_main_v13 (F := F) x (ix4 b s p e) = val_main_v12 (F := F) x (ix4 b s p (0 : Fin 1)) :=
    concatenate_pair_apply_right (t := S64x2048x256x2) (s₁ := S64x2048x256x1) (s₂ := S64x2048x256x1) 3 _ _ _ _ rfl rfl _
      (fun a ha => match a, ha with
        | ⟨0, _⟩, _ => rfl
        | ⟨1, _⟩, _ => rfl
        | ⟨2, _⟩, _ => rfl
        | ⟨3, _⟩, ha => absurd rfl ha)
      (by show (0 : Nat) + 1 = e.val; omega)
  rw [hcat, val_main_v12_apply]
  exact congrArg _ (funext fun a => match a with | ⟨0, _⟩ => rfl | ⟨1, _⟩ => rfl | ⟨2, _⟩ => rfl)

/-- The reference's result, as a function of its argument, is the transform. -/
theorem ref_is_haar (x : (⟨S64x4096x256, .f32⟩ : BufTy).Contents (Elt F)) :
    val_main_v14 (F := F) x = Cert.Haar.haar x := by
  funext i
  obtain ⟨b, s, q, rfl⟩ : ∃ (b : Fin 64) (s : Fin 2048) (q : Fin 512), i = ix3 b s q := ⟨i 0, i 1, i 2, eq_ix3 i⟩
  have hb := b.isLt
  have hs := s.isLt
  have hq := q.isLt
  have e14 : idx_main_v14 (ix3 b s q)
      = ix4 b s (⟨q.val / 2, by omega⟩ : Fin 256) (⟨q.val % 2, by omega⟩ : Fin 2) := by
    funext a
    apply Fin.ext
    match a with
    | ⟨0, _⟩ => show ((b.val * 2048 + s.val) * 512 + q.val) / 1048576 = b.val; omega
    | ⟨1, _⟩ => show ((b.val * 2048 + s.val) * 512 + q.val) / 512 % 2048 = s.val; omega
    | ⟨2, _⟩ => show ((b.val * 2048 + s.val) * 512 + q.val) / 2 % 256 = q.val / 2; omega
    | ⟨3, _⟩ => show ((b.val * 2048 + s.val) * 512 + q.val) % 2 = q.val % 2; omega
  rw [val_main_v14_apply, e14, Cert.Haar.haar_apply]
  rcases Nat.mod_two_eq_zero_or_one q.val with h0 | h1
  · rw [slot_even x b s _ _ h0, Cert.Haar.coef_even h0, val_main_v7_apply, val_main_v5_apply, even_sample, odd_sample,
      val_main_v6_apply, val_main_cst_apply]
    rfl
  · rw [slot_odd x b s _ _ h1, Cert.Haar.coef_odd h1, val_main_v10_apply, val_main_v8_apply, even_sample, odd_sample,
      val_main_v9_apply, val_main_cst_0_apply]
    rfl

end Cert.ReferenceIdeal.HaarRef

end
-- ==== Proof.HaarBlock.lean ====
/-
  What the kernel body leaves in its output block, entry by entry.

  The body loads the left half (lanes 0..255) and the right half (lanes 256..511) of its input block [2048, 512] —
  the even and the odd sample of each of the block's 2048 pairs —, forms (left + right) * h and (left - right) * h,
  gives each a trailing unit axis, joins them along it into [2048, 256, 2] and merges the last two axes into 512 lanes.
  Lane q of row r therefore comes from slot q % 2 of feature q / 2: the sum when q is even, the difference when q is
  odd, of lanes q / 2 and 256 + q / 2 of row r of the input block.
-/
import proofs.«172905_j45938970198411_2_alg».proof.Proof.Gen.KernelIdeal.Frame
import proofs.«172905_j45938970198411_2_alg».proof.Proof.HaarSpec
import Idealize.ShloMosaic.Lib.Pipeline.Value
import Idealize.ShloMosaic.Lib.ValueIdx

noncomputable section

namespace Cert.KernelIdeal.HaarBlock

open Cert.KernelIdeal Cert.KernelIdeal.Gen Idealize.ShloMosaic Idealize.ShloMosaic.ValueIdx

variable {F : FTy → Type} [FloatOps F]

theorem zero_offsets : (![0, 0] : Fin 2 → Nat) = fun _ => 0 := funext fun a => by fin_cases a <;> rfl

/-- The stored value at row `r`, lane `q`, from the two loaded halves: the coefficient of their entries at
    (r, q / 2). -/
theorem stored_apply (left right : Vec F S2048x256 .f32) (r : Fin 2048) (q : Fin 512) :
    k0_pay1 left right (ix2 r q)
      = Cert.Haar.coef q.val
          (left (ix2 r (⟨q.val / 2, by have := q.isLt; omega⟩ : Fin 256)))
          (right (ix2 r (⟨q.val / 2, by have := q.isLt; omega⟩ : Fin 256))) := by
  have hr := r.isLt
  have hq := q.isLt
  unfold k0_pay1
  -- the merge of [256, 2] into 512 lanes: lane q is (feature q / 2, slot q % 2)
  refine (shapeCast_apply _ _ (ix2 r q)
    (ix3 r (⟨q.val / 2, by omega⟩ : Fin 256) (⟨q.val % 2, by omega⟩ : Fin 2)) ?_).trans ?_
  · rw [Shape.rowMajor_val_three, Shape.rowMajor_val_two]
    show (r.val * 256 + q.val / 2) * 2 + q.val % 2 = r.val * 512 + q.val
    omega
  rcases Nat.mod_two_eq_zero_or_one q.val with h0 | h1
  · -- slot 0: the sum
    refine (concatenate_pair_apply_left (t := S2048x256x2) (s₁ := S2048x256x1) (s₂ := S2048x256x1) 2 _ _ _ _ rfl
      (ix3 r (⟨q.val / 2, by omega⟩ : Fin 256) (0 : Fin 1))
      (fun a => match a with
        | ⟨0, _⟩ => rfl
        | ⟨1, _⟩ => rfl
        | ⟨2, _⟩ => by show (0 : Nat) = q.val % 2; omega)).trans ?_
    refine (shapeCast_apply _ _ (ix3 r (⟨q.val / 2, by omega⟩ : Fin 256) (0 : Fin 1))
      (ix2 r (⟨q.val / 2, by omega⟩ : Fin 256)) ?_).trans ?_
    · rw [Shape.rowMajor_val_two, Shape.rowMajor_val_three]
      show r.val * 256 + q.val / 2 = (r.val * 256 + q.val / 2) * 1 + 0
      omega
    rw [Cert.Haar.coef_even h0, shapeCast_self, shapeCast_self]
    rfl
  · -- slot 1: the difference
    refine (concatenate_pair_apply_right (t := S2048x256x2) (s₁ := S2048x256x1) (s₂ := S2048x256x1) 2 _ _ _ _ rfl rfl
      (ix3 r (⟨q.val / 2, by omega⟩ : Fin 256) (0 : Fin 1))
      (fun a ha => match a, ha with
        | ⟨0, _⟩, _ => rfl
        | ⟨1, _⟩, _ => rfl
        | ⟨2, _⟩, ha => absurd rfl ha)
      (by show (0 : Nat) + 1 = q.val % 2; omega)).trans ?_
    refine (shapeCast_apply _ _ (ix3 r (⟨q.val / 2, by omega⟩ : Fin 256) (0 : Fin 1))
      (ix2 r (⟨q.val / 2, by omega⟩ : Fin 256)) ?_).trans ?_
    · rw [Shape.rowMajor_val_two, Shape.rowMajor_val_three]
      show r.val * 256 + q.val / 2 = (r.val * 256 + q.val / 2) * 1 + 0
      omega
    rw [Cert.Haar.coef_odd h1, shapeCast_self, shapeCast_self]
    rfl

/-- The left half of a block at (r, p) is the block at (r, p). -/
theorem left_apply (x0 : Vec F S2048x512 .f32) (r : Fin 2048) (p : Fin 256) :
    View.ld x0 r0_0 (ix2 r p) = x0 (ix2 r (⟨p.val, by have := p.isLt; omega⟩ : Fin 512)) :=
  congrArg x0 (funext fun a => Fin.ext (by
    match a with
    | ⟨0, _⟩ => show 0 + 1 * r.val = r.val; omega
    | ⟨1, _⟩ => show 0 + 1 * p.val = p.val; omega))

/-- The right half of a block at (r, p) is the block at (r, 256 + p). -/
theorem right_apply (x0 : Vec F S2048x512 .f32) (r : Fin 2048) (p : Fin 256) :
    View.ld x0 r0_1 (ix2 r p) = x0 (ix2 r (⟨256 + p.val, by have := p.isLt; omega⟩ : Fin 512)) :=
  congrArg x0 (funext fun a => Fin.ext (by
    match a with
    | ⟨0, _⟩ => show 0 + 1 * r.val = r.val; omega
    | ⟨1, _⟩ => show 256 + 1 * p.val = 256 + p.val; omega))

/-- The output block at row `r`, lane `q`: the coefficient of lanes `q / 2` and `256 + q / 2` of row `r` of the input
    block. -/
theorem out_apply (x0 : Vec F S2048x512 .f32) (r : Fin 2048) (q : Fin 512) :
    out0_1 x0 (ix2 r q)
      = Cert.Haar.coef q.val
          (x0 (ix2 r (⟨q.val / 2, by have := q.isLt; omega⟩ : Fin 512)))
          (x0 (ix2 r (⟨256 + q.val / 2, by have := q.isLt; omega⟩ : Fin 512))) := by
  unfold out0_1
  rw [View.canon_unit_zero zero_offsets, stored_apply, left_apply, right_apply]

end Cert.KernelIdeal.HaarBlock

end
-- ==== Proof.HaarRegion.lean ====
/-
  From blocks to the whole result of the kernel program.

  The program re-reads its argument x : [64, 4096, 256] as 131072 rows of 512 lanes, runs the kernel body once per grid
  point t = 0..63 on rows 2048 t .. 2048 t + 2047 (all 512 lanes) of that array, each point writing the same rows of
  the output array, and re-reads the output as [64, 2048, 512].

  A point's output block is the row transform `Cert.Haar.haarRows` of the input rows restricted to the block
  (`written_block`): the body works row by row, and the block's row r is the array's row 2048 t + r.  The 64 blocks tile
  the 131072 rows (row k lies in block k / 2048), so the output array ends as the row transform of the input rows
  (`region_result`), and between the two re-readings that is the Haar transform of x (`Cert.Haar.haarRows_reshape`).
-/
import proofs.«172905_j45938970198411_2_alg».proof.Proof.Gen.KernelIdeal.Frame
import proofs.«172905_j45938970198411_2_alg».proof.Proof.HaarSpec
import proofs.«172905_j45938970198411_2_alg».proof.Proof.HaarBlock
import Idealize.ShloMosaic.Lib.Pipeline.Value
import Idealize.ShloMosaic.Lib.StableHlo.Run
import Idealize.ShloMosaic.Lib.ValueIdx

set_option maxRecDepth 16384

noncomputable section

namespace Cert.KernelIdeal.HaarRegion

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- At grid point `t` both windows' block index is (t, 0): the block is rows 2048 t .. 2048 t + 2047, every lane. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (r, l) of the input block at point `t` is entry (2048 t + r, l) of the rows the region reads. -/
theorem in_block_apply (c : Dev nD) (t : Fin cfg0.N) (r : Fin 2048) (l : Fin 512) (k : Fin 131072)
    (hk : k.val = 2048 * t.val + r.val) :
    (iblk m c 0 t : Vec F S2048x512 .f32) (ix2 r l) = (V m c main_v0 : S131072x512.Idx → F .f32) (ix2 k l) := by
  obtain ⟨e0, e1, -, -⟩ := block_index t
  unfold iblk
  rw [View.read_apply]
  show V m c main_v0 _ = V m c main_v0 _
  refine congrArg (V m c main_v0) (funext fun a => Fin.ext ?_)
  match a with
  | ⟨0, _⟩ => show win0_0.index t (0 : Fin 2) * 2048 + 1 * r.val = k.val; rw [e0, hk]; omega
  | ⟨1, _⟩ => show win0_0.index t (1 : Fin 2) * 512 + 1 * l.val = l.val; rw [e1]; omega

/-- What point `t` writes back is block `t` of the row transform of the rows the region reads. -/
theorem written_block (c : Dev nD) (t : Fin cfg0.N) :
    (dats m 0 c).flushed 1 t
      = ((cfg0.win 1).blk t).view.read (Elt F) (Cert.Haar.haarRows (V m c main_v0)) := by
  show (cfg0.win 1).cut (grid0.coords t) ((dats m 0 c).after 1 t) = _
  rw [after0_1]
  have ht : t.val < 64 := lt_of_lt_of_eq t.isLt (show cfg0.N = 64 from N_0)
  obtain ⟨-, -, e0, e1⟩ := block_index t
  funext j
  obtain ⟨r, q, rfl⟩ : ∃ (r : Fin 2048) (q : Fin 512), j = ix2 r q := ⟨j 0, j 1, eq_ix2 j⟩
  have hr := r.isLt
  show out0_1 (iblk m c 0 t) (ix2 r q)
    = Cert.Haar.haarRows (V m c main_v0) (((cfg0.win 1).blk t).view.emb (ix2 r q))
  have hemb : ((cfg0.win 1).blk t).view.emb (ix2 r q)
      = (ix2 (⟨2048 * t.val + r.val, by omega⟩ : Fin 131072) q : S131072x512.Idx) := by
    funext a
    apply Fin.ext
    match a with
    | ⟨0, _⟩ => show win0_1.index t (0 : Fin 2) * 2048 + 1 * r.val = 2048 * t.val + r.val; rw [e0]; omega
    | ⟨1, _⟩ => show win0_1.index t (1 : Fin 2) * 512 + 1 * q.val = q.val; rw [e1]; omega
  rw [hemb, HaarBlock.out_apply (iblk m c 0 t) r q, Cert.Haar.haarRows_apply,
    in_block_apply m c t r _ ⟨2048 * t.val + r.val, by omega⟩ rfl,
    in_block_apply m c t r _ ⟨2048 * t.val + r.val, by omega⟩ rfl]

/-- An index of the output array is in point `t`'s block iff each coordinate is in the block's range on its axis. -/
theorem mem_block (t : Fin cfg0.N) (i : S131072x512.Idx) :
    i ∈ ((cfg0.win 1).blk t).view.set
      ↔ ∀ a : Fin 2, win0_1.index t a * S2048x512.size a ≤ (i a).val
          ∧ (i a).val < win0_1.index t a * S2048x512.size a + S2048x512.size a := by
  show i ∈ ((View.whole main_v1).slice (win0_1.rect t)).set ↔ _
  rw [View.set_slice_whole, Rect.mem_set_unit]
  exact Iff.rfl

/-- Every row is in some point's block: row k in block k / 2048. -/
theorem covered (i : S131072x512.Idx) :
    ∃ t : Fin cfg0.N, (cfg0.win 1).flush t = true ∧ i ∈ ((cfg0.win 1).blk t).view.set := by
  have hi0 : (i 0).val < 131072 := (i 0).isLt
  have hi1 : (i 1).val < 512 := (i 1).isLt
  obtain ⟨t, ht⟩ : ∃ t : Fin cfg0.N, t.val = (i 0).val / 2048 :=
    ⟨⟨(i 0).val / 2048, by rw [show cfg0.N = 64 from N_0]; omega⟩, rfl⟩
  obtain ⟨-, -, e0, e1⟩ := block_index t
  refine ⟨t, flush0_1 t, ?_⟩
  rw [mem_block]
  intro a
  match a with
  | ⟨0, _⟩ =>
    show win0_1.index t (0 : Fin 2) * 2048 ≤ (i 0).val ∧ (i 0).val < win0_1.index t (0 : Fin 2) * 2048 + 2048
    rw [e0, ht]; omega
  | ⟨1, _⟩ =>
    show win0_1.index t (1 : Fin 2) * 512 ≤ (i 1).val ∧ (i 1).val < win0_1.index t (1 : Fin 2) * 512 + 512
    rw [e1]; omega

/-- After the region the output array holds the row transform of the rows the region read. -/
theorem region_result (c : Dev nD) :
    (dats m 0 c).arrAt 1 cfg0.N = Cert.Haar.haarRows (V m c main_v0) :=
  (dats m 0 c).arrAt_eq_of_cover 1 (Cert.Haar.haarRows (V m c main_v0)) (fun t _ => written_block m c t) covered

/-- The rows the region reads are the argument re-read as 131072 rows of 512 lanes. -/
theorem rows_in (c : Dev nD) :
    (V m c main_v0 : S131072x512.Idx → F .f32)
      = shapeCast S131072x512 (m ((c : Thread nD τ).loc main_arg0)) Facts₀.shapeCasts_S64x4096x256_S131072x512 := by
  show StableHlo.after hostOps0 (fun b => m (c, b)) (Proc.devRef .tc main_v0) = _
  after_results
  rfl

/-- The program's result is the output array re-read as [64, 2048, 512]. -/
theorem result_out (c : Dev nD) :
    Pipeline.afterTail₀ cfgs (dats m) 0 (V0 m) [hostOps1] c main_v2
      = shapeCast S64x2048x512 ((dats m 0 c).arrAt 1 cfg0.N) Facts₀.shapeCasts_S131072x512_S64x2048x512 := by
  unfold Pipeline.afterTail₀
  show StableHlo.after hostOps1 _ (Proc.devRef .tc main_v2) = _
  after_results
  have harr : Pipeline.withArrays (cfgs 0).spec c (V0 m c) (fun w => (dats m 0 c).arrAt w (cfgs 0).N)
      (Proc.tc.devRef main_v1) = (dats m 0 c).arrAt 1 cfg0.N :=
    Pipeline.withArrays_arr spec0 launch0.win.arr_inj c (V0 m c) (fun w => (dats m 0 c).arrAt w cfg0.N) 1
  rw [harr]
  rfl

/-- The program's result is the Haar transform of its argument. -/
theorem result_eq (c : Dev nD) :
    Pipeline.afterTail₀ cfgs (dats m) 0 (V0 m) [hostOps1] c main_v2
      = Cert.Haar.haar (m ((c : Thread nD τ).loc main_arg0)) := by
  rw [result_out, region_result, rows_in]
  exact Cert.Haar.haarRows_reshape _ _ _

/-- Every weakly fair execution of the kernel program terminates with the result array at the Haar transform of the
    argument and the argument unchanged. -/
theorem run : θ_run defs (onTc (τ := τ) (main (F := F))) ⟨m, fun _ => 0, ρ⟩ fun r => ∀ c : Dev nD,
      r.2.mem ((c : Thread nD τ).loc main_v2) = Cert.Haar.haar (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.HaarRegion

end
-- ==== Proof.lean ====
/-
  The kernel and its reference compute the level-1 Haar wavelet transform along the time axis of x : [64, 4096, 256],
  interleaving approximation and detail coefficients per feature:

      y[b, s, 2f]     = (x[b, 2s, f] + x[b, 2s+1, f]) * h
      y[b, s, 2f + 1] = (x[b, 2s, f] - x[b, 2s+1, f]) * h          (y : [64, 2048, 512])

  with h the same single-precision constant in both programs.  Both apply the same three operations to the same two
  samples, so they agree on all extended reals: no law of arithmetic is used, the constant is never evaluated, and
  the finiteness precondition is never opened.  What is proved is where each sample goes:

  * the reference slices the pair axis of x read as [64, 2048, 2, 256], and stacks and merges the two coefficient
    arrays: at output (b, s, q) that is `Cert.Haar.haar x` (Proof/HaarReference.lean, over the reference's run read
    one operation at a time);
  * the kernel program reads x as 131072 rows of 512 lanes — row 2048 b + s holds pair (b, s), the even sample in lanes
    0..255 and the odd one in lanes 256..511 —, transforms each block of 2048 rows by pairing lanes q / 2 and
    256 + q / 2 into lane q (Proof/HaarBlock.lean), the 64 blocks tiling the rows (Proof/HaarRegion.lean), and re-reads
    the rows as [64, 2048, 512]: again `Cert.Haar.haar x` (Proof/HaarSpec.lean, `haarRows_reshape`).

  The three frames are the programs' generated runs; the idealization rewrote nothing, so `preserves` is trivial.
-/
import proofs.«172905_j45938970198411_2_alg».proof.Defs
import proofs.«172905_j45938970198411_2_alg».proof.Proof.Gen.Kernel
import proofs.«172905_j45938970198411_2_alg».proof.Proof.Gen.Kernel.Skeleton
import proofs.«172905_j45938970198411_2_alg».proof.Proof.Gen.Kernel.Launch
import proofs.«172905_j45938970198411_2_alg».proof.Proof.Gen.Kernel.Points
import proofs.«172905_j45938970198411_2_alg».proof.Proof.Gen.Kernel.Frame
import proofs.«172905_j45938970198411_2_alg».proof.Proof.Gen.KernelIdeal
import proofs.«172905_j45938970198411_2_alg».proof.Proof.Gen.KernelIdeal.Skeleton
import proofs.«172905_j45938970198411_2_alg».proof.Proof.Gen.KernelIdeal.Launch
import proofs.«172905_j45938970198411_2_alg».proof.Proof.Gen.KernelIdeal.Points
import proofs.«172905_j45938970198411_2_alg».proof.Proof.Gen.KernelIdeal.Frame
import proofs.«172905_j45938970198411_2_alg».proof.Proof.Gen.ReferenceIdeal
import proofs.«172905_j45938970198411_2_alg».proof.Proof.Gen.Pre_finite_inputs
import proofs.«172905_j45938970198411_2_alg».proof.Proof.Gen.ReferenceIdeal.Run
import proofs.«172905_j45938970198411_2_alg».proof.Proof.Gen.ReferenceIdeal.Read
import proofs.«172905_j45938970198411_2_alg».proof.Proof.HaarSpec
import proofs.«172905_j45938970198411_2_alg».proof.Proof.HaarReference
import proofs.«172905_j45938970198411_2_alg».proof.Proof.HaarBlock
import proofs.«172905_j45938970198411_2_alg».proof.Proof.HaarRegion
import Idealize.ShloMosaic.Adequacy
import Idealize.ShloMosaic.Init

noncomputable section

namespace Cert.Proof

open Idealize.ShloMosaic Idealize.SL.Sem

/-- The word-level kernel program runs and leaves its argument unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs and leaves its argument unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on x, both programs end with the Haar transform of x in their result. -/
theorem algebraic : Cert.algebraic_KernelIdeal_ReferenceIdeal := by
  intro m ρ m' ρ' _ hagree
  refine ⟨_, Cert.KernelIdeal.HaarRegion.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.HaarRef.ref_is_haar, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
